-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x512x1024 : Shape := ⟨3, ![1, 512, 1024]⟩
abbrev S512x1024 : Shape := ⟨2, ![512, 1024]⟩
abbrev S1x1024 : Shape := ⟨2, ![1, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .bf16⟩
  | .hbm, ⟨13, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x512x1024, .f32⟩
  | .local _ .vmem, ⟨21, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S4x2048x1024.size a
  hwx0_8 : ∀ i : grid0.Coords, EltTy.bits .bf16 = 32 ∨ (Rect.block (s := S4x2048x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x2048x1024.size a
  hwx0_9 : ∀ i : grid0.Coords, EltTy.bits .bf16 = 32 ∨ (Rect.block (s := S4x2048x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Single-head dense attention over the extended reals, as two arrangements of one formula.

  For activations `x : [4, 2048, 1024]`, three weight matrices `[1024, 1024]` and three bias vectors `[1024]`,
  a linear layer is `proj x W b (β, s, o) = Σ_h x(β, s, h) · W(o, h) + b(o)`.  With `Q, K, V` three such
  projections, the score of query row `q` against key row `k` in batch `β` is the dot product
  `Σ_h Q(β, q, h) · K(β, k, h)`, scaled by `1/√1024`; a row of scores is turned into softmax weights
  `exp(s_k − max_k s_k) / Σ_k exp(s_k − max_k s_k)`, and the output at `(β, q, h)` is the weighted average of
  `V(β, k, h)` over `k`.

  The two arrangements differ in WHERE the normalising division happens and HOW the scale is spelt:
  * `attnLate`: scores scaled by the literal `1/32`; the unnormalised weights are multiplied into `V` and the
    sum is divided ONCE by the sum of the weights;
  * `attnEarly`: scores divided by `√1024`; the row maximum is taken once more against `−∞`; each weight is
    divided by the weights' sum (taken from the literal `0`) BEFORE it multiplies `V`.
  This module only states them; that they agree on real inputs is proved elsewhere.
-/
import Idealize.ShloMosaic.PureOps.Ideal.Laws
import Idealize.ShloMosaic.Lib.ValueIdx

noncomputable section

open scoped BigOperators

namespace Cert.Attn

open Idealize.ShloMosaic Idealize.ShloMosaic.ValueIdx

/-- Activations: batch × sequence × hidden. -/
abbrev Act : Shape := ⟨3, ![4, 2048, 1024]⟩
/-- A weight matrix: output feature × input feature. -/
abbrev Wgt : Shape := ⟨2, ![1024, 1024]⟩
/-- A bias vector. -/
abbrev Bias : Shape := ⟨1, ![1024]⟩

/-- A linear layer `x · Wᵀ + b`, entry by entry. -/
def proj (X : Act.Idx → EReal) (W : Wgt.Idx → EReal) (B : Bias.Idx → EReal) : Act.Idx → EReal :=
  fun i => (∑ h : Fin 1024, X (ix3 (i 0) (i 1) h) * W (ix2 (i 2) h)) + B (ix1 (i 2))

/-- The unscaled score of query row `q` against key row `k` of batch `β`. -/
def dotQK (Q K : Act.Idx → EReal) (β : Fin 4) (q k : Fin 2048) : EReal :=
  ∑ h : Fin 1024, Q (ix3 β q h) * K (ix3 β k h)

/-- The f32 pattern of `−∞`, the value a running maximum starts from. -/
def negInf : EReal := Ideal.ofBits .f32 0xFF800000#32

/-- The maximum of a row, folded from `−∞`. -/
def rowMax {n : ℕ} (s : Fin n → EReal) : EReal := (Finset.univ : Finset (Fin n)).fold max negInf s

/-- Softmax-weighted average of `v` with weights from the scores `s`, normalised by ONE division at the end. -/
def avgLate {n : ℕ} (s v : Fin n → EReal) : EReal :=
  Ideal.div (∑ k : Fin n, Ideal.exp (s k - rowMax s) * v k) (∑ k : Fin n, Ideal.exp (s k - rowMax s))

/-- The same average with every weight normalised first; the row maximum is met once more with `−∞` and the
    normaliser is summed from the literal zero. -/
def avgEarly {n : ℕ} (s v : Fin n → EReal) : EReal :=
  ∑ k : Fin n, Ideal.div (Ideal.exp (s k - max negInf (rowMax s)))
      (Ideal.ofBits .f32 0x00000000#32 + ∑ k' : Fin n, Ideal.exp (s k' - max negInf (rowMax s))) * v k

/-- Attention with the scale as the literal `1/32` and the late division. -/
def attnLate (Q K V : Act.Idx → EReal) : Act.Idx → EReal := fun i =>
  avgLate (fun k : Fin 2048 => dotQK Q K (i 0) (i 1) k * Ideal.ofBits .f32 0x3D000000#32)
    (fun k : Fin 2048 => V (ix3 (i 0) k (i 2)))

/-- Attention with the scale as a division by `√1024` and the early division. -/
def attnEarly (Q K V : Act.Idx → EReal) : Act.Idx → EReal := fun i =>
  avgEarly (fun k : Fin 2048 => Ideal.div (dotQK Q K (i 0) (i 1) k) (Ideal.sqrt (Ideal.ofBits .f32 0x44800000#32)))
    (fun k : Fin 2048 => V (ix3 (i 0) k (i 2)))

end Cert.Attn

end
-- ==== Proof.SpecLaws.lean ====
/-
  Laws of the two arrangements of single-head attention stated in the specification module.

  On REAL inputs the two arrangements agree.  Three facts carry this:
  * the scale: the f32 pattern 0x3D000000 is the real 1/32, the pattern 0x44800000 is the real 1024, √1024 = 32, and
    division by a nonzero real is multiplication by its reciprocal for EVERY extended real;
  * the row maximum of a nonempty row of reals, folded from −∞, is a real μ, and meeting it once more with −∞ changes
    nothing; so every weight exp(s_k − μ) is a positive real p_k and their sum L is a positive real;
  * hence (Σ_k p_k · v_k) / L = Σ_k (p_k / L) · v_k, both being the coercion of the same real number.
  Finite sums and products of reals are reals, so the linear layers and the score rows of real inputs are real.
-/
import proofs.«177479_j78743930405585_2_alg».proof.Proof.Spec

noncomputable section

open scoped BigOperators

namespace Cert.Attn

open Idealize.ShloMosaic Idealize.ShloMosaic.ValueIdx

/-! ### The float constants -/

/-- The pattern 0x3D000000 denotes the real `1/32`. -/
theorem ofBits_inv32 : Ideal.ofBits .f32 0x3D000000#32 = ((1 / 32 : ℝ) : EReal) := by
  simp [Ideal.ofBits, Ideal.ieee, -EReal.coe_mul]; norm_num

/-- The pattern 0x44800000 denotes the real `1024`. -/
theorem ofBits_1024 : Ideal.ofBits .f32 0x44800000#32 = ((1024 : ℝ) : EReal) := by
  simp [Ideal.ofBits, Ideal.ieee, -EReal.coe_mul]; norm_num

/-- The pattern 0xFF800000 denotes `−∞`. -/
theorem negInf_eq : negInf = ⊥ := by
  simp [negInf, Ideal.ofBits, Ideal.ieee]

/-- `√1024 = 32`. -/
theorem sqrt_1024 : Real.sqrt 1024 = 32 := by
  rw [show (1024 : ℝ) = 32 ^ 2 by norm_num]
  exact Real.sqrt_sq (by norm_num)

/-- Multiplying by the literal `1/32` is dividing by `√1024`, for every extended real. -/
theorem scale_eq (x : EReal) :
    x * Ideal.ofBits .f32 0x3D000000#32 = Ideal.div x (Ideal.sqrt (Ideal.ofBits .f32 0x44800000#32)) := by
  rw [ofBits_inv32, ofBits_1024, Ideal.sqrt_coe, if_neg (by norm_num), sqrt_1024,
    Ideal.div_coe (by norm_num)]

/-! ### Finite sums and maxima of reals -/

/-- A finite sum of coerced reals is the coercion of the real sum. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- The maximum of a nonempty finite family of reals, folded from `⊥`, is a real. -/
theorem fold_max_real {ι : Type*} (t : Finset ι) (ht : t.Nonempty) (f : ι → ℝ) :
    ∃ μ : ℝ, t.fold max (⊥ : EReal) (fun k => ((f k : ℝ) : EReal)) = (μ : EReal) := by
  induction ht using Finset.Nonempty.cons_induction with
  | singleton a => exact ⟨f a, by rw [Finset.fold_singleton]; exact max_eq_left bot_le⟩
  | cons a t ha _ ih =>
    obtain ⟨μ, hμ⟩ := ih
    exact ⟨max (f a) μ, by rw [Finset.fold_cons, hμ]; exact (EReal.coe_strictMono.monotone.map_max).symm⟩

/-- The row maximum of a nonempty row of reals is a real. -/
theorem rowMax_real {n : ℕ} (hn : 0 < n) (σ : Fin n → ℝ) :
    ∃ μ : ℝ, rowMax (fun k => ((σ k : ℝ) : EReal)) = (μ : EReal) := by
  haveI : Nonempty (Fin n) := ⟨⟨0, hn⟩⟩
  unfold rowMax
  rw [negInf_eq]
  exact fold_max_real Finset.univ Finset.univ_nonempty σ

/-! ### The two weighted averages agree on real rows -/

/-- On a nonempty row of real scores and real values, dividing the weighted sum once by the weights' sum is the same
    as normalising every weight first: both are the real `(Σ_k p_k · v_k) / L` with `p_k = exp(s_k − μ)`, `L = Σ_k p_k`. -/
theorem avg_eq {n : ℕ} (hn : 0 < n) (s v : Fin n → EReal) (hs : ∀ k, ∃ r : ℝ, s k = (r : EReal))
    (hv : ∀ k, ∃ r : ℝ, v k = (r : EReal)) : avgLate s v = avgEarly s v := by
  choose σ hσ using hs
  choose ν hν using hv
  obtain rfl : s = fun k => ((σ k : ℝ) : EReal) := funext hσ
  obtain rfl : v = fun k => ((ν k : ℝ) : EReal) := funext hν
  haveI : Nonempty (Fin n) := ⟨⟨0, hn⟩⟩
  obtain ⟨μ, hμ⟩ := rowMax_real hn σ
  have hμ' : max negInf (rowMax (fun k => ((σ k : ℝ) : EReal))) = (μ : EReal) := by
    rw [hμ, negInf_eq]; exact max_eq_right bot_le
  have hw : ∀ k, Ideal.exp (((σ k : ℝ) : EReal) - (μ : EReal)) = ((Real.exp (σ k - μ) : ℝ) : EReal) := fun k => by
    rw [← EReal.coe_sub, Ideal.exp_coe]
  have hLpos : 0 < ∑ k : Fin n, Real.exp (σ k - μ) :=
    Finset.sum_pos (fun k _ => Real.exp_pos _) Finset.univ_nonempty
  have hLne : (∑ k : Fin n, Real.exp (σ k - μ)) ≠ 0 := ne_of_gt hLpos
  unfold avgLate avgEarly
  rw [hμ', hμ]
  simp only [hw]
  rw [Ideal.ofBits_zero_f32, zero_add, coe_sum Finset.univ (fun k => Real.exp (σ k - μ))]
  simp only [Ideal.div_coe hLne, ← EReal.coe_mul]
  rw [coe_sum, coe_sum, ← EReal.coe_mul, Finset.sum_mul]
  refine congrArg _ (Finset.sum_congr rfl fun k _ => ?_)
  ring

/-! ### Sums of products of reals are real -/

/-- A finite sum of products of reals is a real. -/
theorem sum_mul_real {ι : Type*} (t : Finset ι) (a b : ι → EReal) (ha : ∀ k, ∃ r : ℝ, a k = (r : EReal))
    (hb : ∀ k, ∃ r : ℝ, b k = (r : EReal)) : ∃ r : ℝ, ∑ k ∈ t, a k * b k = (r : EReal) := by
  choose α hα using ha
  choose β hβ using hb
  refine ⟨∑ k ∈ t, α k * β k, ?_⟩
  rw [← coe_sum]
  refine Finset.sum_congr rfl fun k _ => ?_
  rw [hα, hβ, EReal.coe_mul]

/-- The unscaled score of real queries against real keys is a real. -/
theorem dotQK_real (Q K : Act.Idx → EReal) (hQ : ∀ i, ∃ r : ℝ, Q i = (r : EReal))
    (hK : ∀ i, ∃ r : ℝ, K i = (r : EReal)) (β : Fin 4) (q k : Fin 2048) :
    ∃ r : ℝ, dotQK Q K β q k = (r : EReal) :=
  sum_mul_real Finset.univ (fun h : Fin 1024 => Q (ix3 β q h)) (fun h : Fin 1024 => K (ix3 β k h))
    (fun _ => hQ _) (fun _ => hK _)

/-- A linear layer of real activations, real weights and real biases is real at every index. -/
theorem proj_real (X : Act.Idx → EReal) (W : Wgt.Idx → EReal) (B : Bias.Idx → EReal)
    (hX : ∀ i, ∃ r : ℝ, X i = (r : EReal)) (hW : ∀ i, ∃ r : ℝ, W i = (r : EReal))
    (hB : ∀ i, ∃ r : ℝ, B i = (r : EReal)) (i : Act.Idx) : ∃ r : ℝ, proj X W B i = (r : EReal) := by
  obtain ⟨a, ha⟩ := sum_mul_real Finset.univ (fun h : Fin 1024 => X (ix3 (i 0) (i 1) h))
    (fun h : Fin 1024 => W (ix2 (i 2) h)) (fun _ => hX _) (fun _ => hW _)
  obtain ⟨b, hb⟩ := hB (ix1 (i 2))
  refine ⟨a + b, ?_⟩
  unfold proj
  rw [EReal.coe_add, ← hb, ← ha]

/-! ### The two arrangements of attention agree on real inputs -/

/-- On real queries, keys and values the late-division attention with the literal scale equals the early-division
    attention with the scale spelt as a division by `√1024`: the scaled score rows are the same by `scale_eq`, they are
    rows of reals (a real times `1/32`), and then the two averages agree by `avg_eq`. -/
theorem attnLate_eq_attnEarly (Q K V : Act.Idx → EReal) (hQ : ∀ i, ∃ r : ℝ, Q i = (r : EReal))
    (hK : ∀ i, ∃ r : ℝ, K i = (r : EReal)) (hV : ∀ i, ∃ r : ℝ, V i = (r : EReal)) :
    attnLate Q K V = attnEarly Q K V := by
  funext i
  unfold attnLate attnEarly
  have hrow : (fun k : Fin 2048 => dotQK Q K (i 0) (i 1) k * Ideal.ofBits .f32 0x3D000000#32)
      = fun k : Fin 2048 =>
        Ideal.div (dotQK Q K (i 0) (i 1) k) (Ideal.sqrt (Ideal.ofBits .f32 0x44800000#32)) :=
    funext fun k => scale_eq _
  rw [← hrow]
  refine avg_eq (by norm_num) _ _ (fun k => ?_) (fun k => hV _)
  obtain ⟨r, hr⟩ := dotQK_real Q K hQ hK (i 0) (i 1) k
  exact ⟨r * (1 / 32), by rw [hr, ofBits_inv32, EReal.coe_mul]⟩

end Cert.Attn

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.Finite.lean ====
/-
  Reading the precondition "every input entry has absolute value below +∞" back as: every input entry is a real number.

  The precondition is the conjunction, over the seven float arguments, of `all (|a| < +∞)`.  Each `all` is a reduction
  by `and` over every axis, started from 1; the conjunction is a left-nested chain of six `and`s of the seven results.
  If the chain is 1 then each reduction is 1 (an `and` of two bits is 1 only when both are), so each compared entry is 1
  (a fold by `and` that came out 1 met only 1s).  An entry of the comparison at index `i` is the ordered test
  `max (a i) (-(a i)) < +∞` on the extended reals: the constant of rank 0 broadcast to the argument's shape reads as that
  constant at every index, and the pattern 0x7F800000 denotes `⊤`.  An extended real whose absolute value is below `⊤`
  is neither `⊤` nor `⊥`, hence a real number.
-/
import proofs.«177479_j78743930405585_2_alg».proof.Pre_finite_inputs
import Idealize.ShloMosaic.Lib.ReduceAll
import Idealize.ShloMosaic.Lib.ValueIdx
import Idealize.ShloMosaic.PureOps.Ideal.Laws
import proofs.«177479_j78743930405585_2_alg».proof.Proof.LibEReal

noncomputable section

namespace Cert.Attn.Finite

open Idealize.ShloMosaic
open Cert.Pre_finite_inputs

/-- The shape of rank 0 has exactly one index: two indices are functions out of the empty type of axes. -/
instance subsingleton_scalar_idx : Subsingleton S_.Idx := ⟨fun a b => funext fun d => d.elim0⟩

/-- An `and` of two `i1` vectors is 1 at an index exactly when both are 1 there. -/
theorem andi_apply_eq_one {s : Shape} (x y : IVec s 1) (i : s.Idx) :
    andi x y i = 1#1 ↔ x i = 1#1 ∧ y i = 1#1 :=
  IntOp.andi_eq_one

/-- One entry of the test `|a| < +∞` being 1 says that entry of `a` is a real number.  At index `i` the test is the
    ordered comparison of `max (a i) (-(a i))` with the broadcast constant, which at every index is the value of the
    pattern of +∞. -/
theorem real_of_entry {s : Shape} (a : FVec Ideal s .f32)
    (hb : S_.BroadcastsInDim s (![] : Fin 0 → Fin s.rank)) (i : s.Idx)
    (e : cmpf .olt (Host.absf a) (broadcastInDim s ![] hb (constant (F := Ideal) S_ .f32 0x7F800000#32)) i = 1#1) :
    ∃ r : ℝ, a i = (r : EReal) := by
  have hc : cmpf .olt (Host.absf a) (broadcastInDim s ![] hb (constant (F := Ideal) S_ .f32 0x7F800000#32)) i
      = Ideal.cmp .olt (max (a i) (-(a i))) (Ideal.ofBits .f32 0x7F800000#32) := rfl
  rw [hc] at e
  exact Cert.LibEReal.real_of_abs_lt_top (a i) (Cert.LibEReal.lt_top_of_cmp _ e)

/-- `all (|a| < +∞)` being 1 says every entry of `a` is a real number, for an argument of any shape reduced over all of
    its axes: the reduction's single result is 1 only if every compared entry is 1. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) :=
  fun i => real_of_entry a hb i (Host.reduce_andi_all _ _ hr hu ValueIdx.ix0 e i)

/-- The precondition read back: if the printed predicate is true then every entry of each of the seven arguments is a
    real number. -/
theorem real_of_pre [Cert.Pre_finite_inputs.Facts]
    (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [Cert.Pre_finite_inputs.fn, Cert.Pre_finite_inputs.fn_part1] at h0
  -- the chain is ((((((r0 ∧ r1) ∧ r2) ∧ r3) ∧ r4) ∧ r5) ∧ r6): peel it from the outside
  obtain ⟨h5, e6⟩ := (andi_apply_eq_one _ _ _).1 h0
  obtain ⟨h4, e5⟩ := (andi_apply_eq_one _ _ _).1 h5
  obtain ⟨h3, e4⟩ := (andi_apply_eq_one _ _ _).1 h4
  obtain ⟨h2, e3⟩ := (andi_apply_eq_one _ _ _).1 h3
  obtain ⟨h1, e2⟩ := (andi_apply_eq_one _ _ _).1 h2
  obtain ⟨e0, e1⟩ := (andi_apply_eq_one _ _ _).1 h1
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

end Cert.Attn.Finite

end
-- ==== Proof.RefValue.lean ====
/-
  The reference program computes the early-division arrangement of attention.

  Read one operation at a time, the reference is: three linear layers `Q, K, V` of the activations (a contraction
  over the hidden axis plus a broadcast bias); the scores `Σ_h Q(β, q, h) · K(β, k, h)` divided by `√1024`; for each
  row `(β, q)` the maximum of the scores folded from `−∞`, met once more with `−∞`; the exponentials of the scores
  less that maximum; their sum taken from the literal zero; every exponential divided by that sum; and the
  contraction of those weights with `V` over the key axis.  Stage by stage this is `Cert.Attn.attnEarly` of the
  three projections.  Each stage is read at an index whose coordinates are variables of literal range.
-/
import proofs.«177479_j78743930405585_2_alg».proof.Proof.Spec
import proofs.«177479_j78743930405585_2_alg».proof.Proof.Gen.ReferenceIdeal.Read

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

/-! ## The linear layers -/

/-- A linear layer's element at `i`: the contraction pairs the activations at `(i 0, i 1, ·)` with row `i 2` of the
    weights, and the twice-broadcast bias is read at `i 2`. -/
theorem linear_form (X : (⟨S4x2048x1024, .f32⟩ : BufTy).Contents (Elt Ideal))
    (W : (⟨S1024x1024, .f32⟩ : BufTy).Contents (Elt Ideal)) (B : (⟨S1024, .f32⟩ : BufTy).Contents (Elt Ideal))
    (i : S4x2048x1024.Idx) :
    (∑ k : Fin 1024, X (lidx_main_v0 i k) * W (ridx_main_v0 i k)) + B (idx_main_v1 (idx_main_v2 i)) = proj X W B i := by
  have el : ∀ k : Fin 1024, lidx_main_v0 i k = ix3 (i 0) (i 1) k := fun k =>
    funext fun a => Fin.ext (by match a with | ⟨0, _⟩ => rfl | ⟨1, _⟩ => rfl | ⟨2, _⟩ => rfl)
  have er : ∀ k : Fin 1024, ridx_main_v0 i k = ix2 (i 2) k := fun k =>
    funext fun a => Fin.ext (by match a with | ⟨0, _⟩ => rfl | ⟨1, _⟩ => rfl)
  have eb : idx_main_v1 (idx_main_v2 i) = ix1 (i 2) :=
    funext fun a => Fin.ext (by match a with | ⟨0, _⟩ => rfl)
  unfold proj
  rw [eb]
  simp only [el, er]
  rfl

/-- The query projection. -/
theorem linear_q (x0 : (⟨S4x2048x1024, .f32⟩ : BufTy).Contents (Elt Ideal))
    (x1 : (⟨S1024x1024, .f32⟩ : BufTy).Contents (Elt Ideal)) (x2 : (⟨S1024, .f32⟩ : BufTy).Contents (Elt Ideal)) :
    val_main_v3 (F := Ideal) x0 x1 x2 = proj x0 x1 x2 := by
  funext i
  rw [val_main_v3_apply, val_main_v0_apply, val_main_v2_apply, val_main_v1_apply, Ideal.addf_def]
  exact linear_form x0 x1 x2 i

/-- The key projection. -/
theorem linear_k (x0 : (⟨S4x2048x1024, .f32⟩ : BufTy).Contents (Elt Ideal))
    (x3 : (⟨S1024x1024, .f32⟩ : BufTy).Contents (Elt Ideal)) (x4 : (⟨S1024, .f32⟩ : BufTy).Contents (Elt Ideal)) :
    val_main_v7 (F := Ideal) x0 x3 x4 = proj x0 x3 x4 := by
  funext i
  rw [val_main_v7_apply, val_main_v4_apply, val_main_v6_apply, val_main_v5_apply, Ideal.addf_def]
  exact linear_form x0 x3 x4 i

/-- The value projection. -/
theorem linear_v (x0 : (⟨S4x2048x1024, .f32⟩ : BufTy).Contents (Elt Ideal))
    (x5 : (⟨S1024x1024, .f32⟩ : BufTy).Contents (Elt Ideal)) (x6 : (⟨S1024, .f32⟩ : BufTy).Contents (Elt Ideal)) :
    val_main_v11 (F := Ideal) x0 x5 x6 = proj x0 x5 x6 := by
  funext i
  rw [val_main_v11_apply, val_main_v8_apply, val_main_v10_apply, val_main_v9_apply, Ideal.addf_def]
  exact linear_form x0 x5 x6 i

/-! ## The scores -/

/-- The score of query row `q` against key row `k` in batch `β`, divided by `√1024`. -/
def score (Q K : Act.Idx → EReal) (β : Fin 4) (q k : Fin 2048) : EReal :=
  Ideal.div (dotQK Q K β q k) (Ideal.sqrt (Ideal.ofBits .f32 0x44800000#32))

/-- The contraction of `Q`'s row `(β, q)` with `K`'s row `(β, k)` over the hidden axis is their dot product. -/
theorem dot_scores (Q K : (⟨S4x2048x1024, .f32⟩ : BufTy).Contents (Elt Ideal)) (β : Fin 4) (q k : Fin 2048) :
    (∑ h : Fin 1024, Q (lidx_main_v12 (ix3 β q k) h) * K (ridx_main_v12 (ix3 β q k) h)) = dotQK Q K β q k := by
  have el : ∀ h : Fin 1024, lidx_main_v12 (ix3 β q k) h = ix3 β q h := fun h =>
    funext fun a => Fin.ext (by match a with | ⟨0, _⟩ => rfl | ⟨1, _⟩ => rfl | ⟨2, _⟩ => rfl)
  have er : ∀ h : Fin 1024, ridx_main_v12 (ix3 β q k) h = ix3 β k h := fun h =>
    funext fun a => Fin.ext (by match a with | ⟨0, _⟩ => rfl | ⟨1, _⟩ => rfl | ⟨2, _⟩ => rfl)
  unfold dotQK
  simp only [el, er]

section Stages

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))

/-- The scaled scores at `(β, q, k)`. -/
theorem scores_at (β : Fin 4) (q k : Fin 2048) :
    val_main_v15 (F := Ideal) x0 x1 x2 x3 x4 (ix3 β q k) = score (proj x0 x1 x2) (proj x0 x3 x4) β q k := by
  rw [val_main_v15_apply, val_main_v12_apply, val_main_v14_apply, val_main_v13_apply, val_main_cst_apply,
    linear_q, linear_k, dot_scores, Ideal.hostDivf_def, Ideal.hostUnary_sqrt_def, Ideal.ofBits_def]
  rfl

/-! ## The row maximum -/

/-- Key coordinate `k` put back into the row index `(β, q)` is `(β, q, k)`. -/
theorem lift_row (h : S4x2048x2048.Reduces [2] S4x2048) (β : Fin 4) (q : Fin 2048) (k : Fin (S4x2048x2048.size 2)) :
    h.lift (ix2 β q) k = ix3 β q (⟨k.val, k.isLt⟩ : Fin 2048) := by
  funext c; apply Fin.ext
  fin_cases c <;> rfl

/-- A maximum-reduce over the key axis from `−∞`, at row `(β, q)`, is the row's maximum folded from `−∞`. -/
theorem reduceMax_row (x : (⟨S4x2048x2048, .f32⟩ : BufTy).Contents (Elt Ideal)) (β : Fin 4) (q : Fin 2048) :
    Host.reduce (FloatOps.maximumf (F := Ideal) (φ := .f32)) x (val_main_cst_0 (F := Ideal)) reducesTo_S4x2048x2048_S4x2048_d2 h_S_ (ix2 β q)
      = rowMax (fun k : Fin 2048 => x (ix3 β q k)) := by
  have h : S4x2048x2048.Reduces [2] S4x2048 := by decide
  rw [Host.reduce_eq_fold_single (FloatOps.maximumf (F := Ideal) (φ := .f32)) x _ reducesTo_S4x2048x2048_S4x2048_d2 h h_S_]
  have hf : (x ∘ h.lift (ix2 β q)) = fun k : Fin 2048 => x (ix3 β q k) :=
    funext fun k => congrArg x (lift_row h β q k)
  unfold rowMax negInf
  exact congrArg (fun f => Finset.fold max (Ideal.ofBits .f32 0xFF800000#32) f (Finset.univ : Finset (Fin 2048))) hf

/-- The reference's row maximum at `(β, q)`. -/
theorem rowMax_at (β : Fin 4) (q : Fin 2048) :
    val_main_v16 (F := Ideal) x0 x1 x2 x3 x4 (ix2 β q)
      = rowMax (fun k : Fin 2048 => score (proj x0 x1 x2) (proj x0 x3 x4) β q k) := by
  unfold val_main_v16
  rw [reduceMax_row]
  simp only [scores_at]

/-- … met once more with `−∞`. -/
theorem rowMax2_at (β : Fin 4) (q : Fin 2048) :
    val_main_v18 (F := Ideal) x0 x1 x2 x3 x4 (ix2 β q)
      = max negInf (rowMax (fun k : Fin 2048 => score (proj x0 x1 x2) (proj x0 x3 x4) β q k)) := by
  rw [val_main_v18_apply, val_main_v17_apply, val_main_cst_1_apply, rowMax_at, Ideal.maximumf_def, Ideal.ofBits_def]
  rfl

/-- The maximum broadcast back along the key axis. -/
theorem rowMax2_bcast_at (β : Fin 4) (q k : Fin 2048) :
    val_main_v20 (F := Ideal) x0 x1 x2 x3 x4 (ix3 β q k)
      = max negInf (rowMax (fun k : Fin 2048 => score (proj x0 x1 x2) (proj x0 x3 x4) β q k)) := by
  have e : idx_main_v19 (idx_main_v20 (ix3 β q k)) = ix2 β q :=
    funext fun a => Fin.ext (by match a with | ⟨0, _⟩ => rfl | ⟨1, _⟩ => rfl)
  rw [val_main_v20_apply, val_main_v19_apply, e, rowMax2_at]

end Stages

/-! ## The weights -/

section Weights

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))

/-- The unnormalised weight at `(β, q, k)`: the exponential of the score less the row's maximum. -/
theorem expo_at (β : Fin 4) (q k : Fin 2048) :
    val_main_v22 (F := Ideal) x0 x1 x2 x3 x4 (ix3 β q k)
      = Ideal.exp (score (proj x0 x1 x2) (proj x0 x3 x4) β q k
          - max negInf (rowMax (fun k' : Fin 2048 => score (proj x0 x1 x2) (proj x0 x3 x4) β q k'))) := by
  rw [val_main_v22_apply, val_main_v21_apply, scores_at, rowMax2_bcast_at, Ideal.hostUnary_exp_def, Ideal.subf_def]

/-- The row's normaliser at `(β, q)`: the literal zero plus the sum of the row's unnormalised weights. -/
theorem expoSum_at (β : Fin 4) (q : Fin 2048) :
    val_main_v23 (F := Ideal) x0 x1 x2 x3 x4 (ix2 β q)
      = Ideal.ofBits .f32 0x00000000#32 + ∑ k : Fin 2048,
          Ideal.exp (score (proj x0 x1 x2) (proj x0 x3 x4) β q k
            - max negInf (rowMax (fun k' : Fin 2048 => score (proj x0 x1 x2) (proj x0 x3 x4) β q k'))) := by
  have e : ∀ k : Fin 2048, idx_main_v23 (ix2 β q) k = ix3 β q k := fun k =>
    funext fun a => Fin.ext (by match a with | ⟨0, _⟩ => rfl | ⟨1, _⟩ => rfl | ⟨2, _⟩ => rfl)
  rw [val_main_v23_apply, val_main_cst_2_apply, Ideal.ofBits_def]
  simp only [e, expo_at]

/-- The normalised weight at `(β, q, k)`. -/
theorem weight_at (β : Fin 4) (q k : Fin 2048) :
    val_main_v26 (F := Ideal) x0 x1 x2 x3 x4 (ix3 β q k)
      = Ideal.div
          (Ideal.exp (score (proj x0 x1 x2) (proj x0 x3 x4) β q k
            - max negInf (rowMax (fun k' : Fin 2048 => score (proj x0 x1 x2) (proj x0 x3 x4) β q k'))))
          (Ideal.ofBits .f32 0x00000000#32 + ∑ k'' : Fin 2048,
            Ideal.exp (score (proj x0 x1 x2) (proj x0 x3 x4) β q k''
              - max negInf (rowMax (fun k' : Fin 2048 => score (proj x0 x1 x2) (proj x0 x3 x4) β q k')))) := by
  have e : idx_main_v24 (idx_main_v25 (ix3 β q k)) = ix2 β q :=
    funext fun a => Fin.ext (by match a with | ⟨0, _⟩ => rfl | ⟨1, _⟩ => rfl)
  rw [val_main_v26_apply, val_main_v25_apply, val_main_v24_apply, e, expo_at, expoSum_at, Ideal.hostDivf_def]

end Weights

/-! ## The reference is the early-division attention -/

/-- The reference program's result is `attnEarly` of the three projections of the activations. -/
theorem ref_value (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    Cert.ReferenceIdeal.Read.val_main_v27 (F := Ideal) x0 x1 x2 x3 x4 x5 x6
      = Cert.Attn.attnEarly (Cert.Attn.proj x0 x1 x2) (Cert.Attn.proj x0 x3 x4) (Cert.Attn.proj x0 x5 x6) := by
  funext i
  obtain ⟨β, q, h, rfl⟩ : ∃ (β : Fin 4) (q : Fin 2048) (h : Fin 1024), i = ix3 β q h := ⟨i 0, i 1, i 2, eq_ix3 i⟩
  have el : ∀ k : Fin 2048, lidx_main_v27 (ix3 β q h) k = ix3 β q k := fun k =>
    funext fun a => Fin.ext (by match a with | ⟨0, _⟩ => rfl | ⟨1, _⟩ => rfl | ⟨2, _⟩ => rfl)
  have er : ∀ k : Fin 2048, ridx_main_v27 (ix3 β q h) k = ix3 β k h := fun k =>
    funext fun a => Fin.ext (by match a with | ⟨0, _⟩ => rfl | ⟨1, _⟩ => rfl | ⟨2, _⟩ => rfl)
  rw [val_main_v27_apply, linear_v]
  simp only [el, er, weight_at]
  rfl

end Cert.ReferenceIdeal.RefValue

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.ProjBody.lean ====
/-
  One tile of a linear layer. The first kernel's body loads a `[1, 512, 1024]` block of activations, a whole
  `[1024, 1024]` weight matrix and a `[1024]` bias, and stores for each of the three layers the tile
  `x · Wᵀ + b`. Read at an entry `(0, r, o)` of the stored block this is

      Σ_{h < 1024} x(0, r, h) · W(o, h) + b(o):

  the block's unit axis is dropped and put back by shape casts, the narrowing to bf16 is the identity on the extended
  reals, the matrix product into the zero accumulator is the plain sum over the shared last axis, and the bias row is
  broadcast down the 512 rows.
-/
import proofs.«177479_j78743930405585_2_alg».proof.Proof.Gen.KernelIdeal.Skeleton
import proofs.«177479_j78743930405585_2_alg».proof.Proof.LibRowsDot
import Idealize.ShloMosaic.Lib.ValueLayout
import Idealize.ShloMosaic.Lib.Pipeline.Value

noncomputable section

open scoped BigOperators

namespace Cert.KernelIdeal.ProjBody

open Cert.KernelIdeal Cert.KernelIdeal.Gen Idealize.ShloMosaic Idealize.ShloMosaic.ValueIdx

/-- The record of the tile's product: one contracted axis of extent 1024, the last of both operands. -/
theorem dot_facts :
    dot_S512x1024_S1024x1024_S512x1024_1_1_0_0_n_n.contr.rank = 1
    ∧ (∀ (j : S512x1024.Idx) (c : dot_S512x1024_S1024x1024_S512x1024_1_1_0_0_n_n.contr.Idx),
        (dot_S512x1024_S1024x1024_S512x1024_1_1_0_0_n_n.lhsIdx j c 0).val = (j 0).val)
    ∧ (∀ (j : S512x1024.Idx) (c : dot_S512x1024_S1024x1024_S512x1024_1_1_0_0_n_n.contr.Idx),
        (dot_S512x1024_S1024x1024_S512x1024_1_1_0_0_n_n.rhsIdx j c 0).val = (j 1).val) := by
  refine ⟨rfl, fun j c => ?_, fun j c => ?_⟩
  · unfold DotDims.lhsIdx
    rw [dif_neg (show ¬(0 : Fin S512x1024.rank) ∈ dot_S512x1024_S1024x1024_S512x1024_1_1_0_0_n_n.lhsBatch by decide),
      dif_pos (show (0 : Fin S512x1024.rank) ∈ dot_S512x1024_S1024x1024_S512x1024_1_1_0_0_n_n.lhsNonContracting by decide)]
    rfl
  · unfold DotDims.rhsIdx
    rw [dif_neg (show ¬(0 : Fin S1024x1024.rank) ∈ dot_S512x1024_S1024x1024_S512x1024_1_1_0_0_n_n.rhsBatch by decide),
      dif_pos (show (0 : Fin S1024x1024.rank) ∈ dot_S512x1024_S1024x1024_S512x1024_1_1_0_0_n_n.rhsNonContracting by decide)]
    rfl

/-- The tile's product at an entry: row `r` of the activations against row `o` of the weights. -/
theorem tile_dot (a : FVec Ideal S512x1024 .bf16) (w : FVec Ideal S1024x1024 .bf16) (r : Fin 512) (o : Fin 1024) :
    matmul dot_S512x1024_S1024x1024_S512x1024_1_1_0_0_n_n none a w (constant (F := Ideal) S512x1024 .f32 0x00000000#32) (ix2 r o)
      = ∑ h : Fin 1024, a (ix2 r h) * w (ix2 o h) :=
  Cert.Lora.rows_dot_zero dot_S512x1024_S1024x1024_S512x1024_1_1_0_0_n_n none dot_facts.1 rfl
    dot_facts.2.1
    (fun j c => dot_S512x1024_S1024x1024_S512x1024_1_1_0_0_n_n.lhsIdx_val_of_single rfl j c)
    dot_facts.2.2
    (fun j c => dot_S512x1024_S1024x1024_S512x1024_1_1_0_0_n_n.rhsIdx_val_of_single rfl j c)
    a w r o

/-- The activations' block, unit axis dropped and narrowed to bf16, at `(r, h)`: the block at `(0, r, h)`. -/
theorem acts_apply (v0 : Vec Ideal S1x512x1024 .f32) (r : Fin 512) (h : Fin 1024) :
    k0_pay2 (F := Ideal) v0 (ix2 r h) = v0 (ix3 (0 : Fin 1) r h) := by
  unfold k0_pay2
  exact shapeCast_1ab_ab_apply v0 shapeCasts_S1x512x1024_S512x1024 r h

/-- The value a linear layer's tile holds before it is stored, at `(r, o)`. -/
theorem layer_apply (v0 : Vec Ideal S1x512x1024 .f32) (w : FVec Ideal S1024x1024 .bf16) (b : FVec Ideal S1024 .f32)
    (r : Fin 512) (o : Fin 1024) :
    (truncf .bf16 (addf (matmul dot_S512x1024_S1024x1024_S512x1024_1_1_0_0_n_n none (k0_pay2 (F := Ideal) v0)
        (shapeCast S1024x1024 w shapeCasts_S1024x1024_S1024x1024) (constant (F := Ideal) S512x1024 .f32 0x00000000#32))
      (broadcastTo S512x1024 (shapeCast S1x1024 b shapeCasts_S1024_S1x1024) broadcasts_S1x1024_S512x1024)) bitsLt_bf16_f32
        : FVec Ideal S512x1024 .bf16) (ix2 r o)
      = (∑ h : Fin 1024, v0 (ix3 (0 : Fin 1) r h) * w (ix2 o h)) + b (ix1 o) := by
  rw [truncf_apply, addf_apply, tile_dot, shapeCast_self]
  refine congrArg₂ (· + ·) (Finset.sum_congr rfl fun h _ => ?_) ?_
  · rw [acts_apply]
  · refine (broadcastTo_1b_ab_apply _ broadcasts_S1x1024_S512x1024 r o).trans ?_
    exact shapeCast_a_1a_apply b shapeCasts_S1024_S1x1024 (0 : Fin 1) o

/-- The first layer's stored block at `(z, r, o)`. -/
theorem pay3_apply (v0 : Vec Ideal S1x512x1024 .f32) (w : Vec Ideal S1024x1024 .bf16) (b : Vec Ideal S1024 .f32)
    (z : Fin 1) (r : Fin 512) (o : Fin 1024) :
    k0_pay3 (F := Ideal) v0 w b (ix3 z r o) = (∑ h : Fin 1024, v0 (ix3 (0 : Fin 1) r h) * w (ix2 o h)) + b (ix1 o) := by
  unfold k0_pay3
  exact (shapeCast_ab_1ab_apply _ shapeCasts_S512x1024_S1x512x1024 z r o).trans (layer_apply v0 w b r o)

/-- The second layer's stored block at `(z, r, o)`. -/
theorem pay4_apply (v0 : Vec Ideal S1x512x1024 .f32) (w : Vec Ideal S1024x1024 .bf16) (b : Vec Ideal S1024 .f32)
    (z : Fin 1) (r : Fin 512) (o : Fin 1024) :
    k0_pay4 (F := Ideal) v0 w b (ix3 z r o) = (∑ h : Fin 1024, v0 (ix3 (0 : Fin 1) r h) * w (ix2 o h)) + b (ix1 o) := by
  unfold k0_pay4
  exact (shapeCast_ab_1ab_apply _ shapeCasts_S512x1024_S1x512x1024 z r o).trans (layer_apply v0 w b r o)

/-- The third layer's stored block at `(z, r, o)`. -/
theorem pay5_apply (v0 : Vec Ideal S1x512x1024 .f32) (w : Vec Ideal S1024x1024 .bf16) (b : Vec Ideal S1024 .f32)
    (z : Fin 1) (r : Fin 512) (o : Fin 1024) :
    k0_pay1 (F := Ideal) (k0_pay5 (F := Ideal) v0 w b) (ix3 z r o)
      = (∑ h : Fin 1024, v0 (ix3 (0 : Fin 1) r h) * w (ix2 o h)) + b (ix1 o) := by
  unfold k0_pay1 k0_pay5
  exact (shapeCast_ab_1ab_apply _ shapeCasts_S512x1024_S1x512x1024 z r o).trans (layer_apply v0 w b r o)

end Cert.KernelIdeal.ProjBody

end
-- ==== Proof.Region0.lean ====
/-
  The first kernel's three result arrays as whole functions of the arrays it is entered with.

  The grid has 4 × 4 points; point `(β, σ)` reads rows `512σ … 512σ + 511` of batch `β` of the activations, the whole
  of each weight matrix and bias, and writes back the same rows of batch `β` of each of the three results. Each
  written block is the block of one whole-array function — the linear layer `proj` of the arrays at entry — and the
  sixteen blocks cover the `[4, 2048, 1024]` array, so each result array ends holding its layer.
-/
import proofs.«177479_j78743930405585_2_alg».proof.Proof.Gen.KernelIdeal.Frame
import proofs.«177479_j78743930405585_2_alg».proof.Proof.Spec
import proofs.«177479_j78743930405585_2_alg».proof.Proof.ProjBody
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the sixteen points: the activations' block and the three results' blocks
    sit at the same block position `(β, σ, 0)` with `β, σ ≤ 3`; every weight and bias block is the whole array. -/
theorem idx_facts : ∀ t : Fin cfg0.N,
    (win0_0.index t (0 : Fin 3) = win0_7.index t (0 : Fin 3) ∧ win0_0.index t (1 : Fin 3) = win0_7.index t (1 : Fin 3)
      ∧ win0_0.index t (2 : Fin 3) = 0)
    ∧ (win0_8.index t (0 : Fin 3) = win0_7.index t (0 : Fin 3) ∧ win0_8.index t (1 : Fin 3) = win0_7.index t (1 : Fin 3)
      ∧ win0_8.index t (2 : Fin 3) = 0)
    ∧ (win0_9.index t (0 : Fin 3) = win0_7.index t (0 : Fin 3) ∧ win0_9.index t (1 : Fin 3) = win0_7.index t (1 : Fin 3)
      ∧ win0_9.index t (2 : Fin 3) = 0)
    ∧ (win0_7.index t (0 : Fin 3) ≤ 3 ∧ win0_7.index t (1 : Fin 3) ≤ 3 ∧ win0_7.index t (2 : Fin 3) = 0)
    ∧ (win0_1.index t (0 : Fin 2) = 0 ∧ win0_1.index t (1 : Fin 2) = 0 ∧ win0_3.index t (0 : Fin 2) = 0
      ∧ win0_3.index t (1 : Fin 2) = 0 ∧ win0_5.index t (0 : Fin 2) = 0 ∧ win0_5.index t (1 : Fin 2) = 0)
    ∧ (win0_2.index t (0 : Fin 1) = 0 ∧ win0_4.index t (0 : Fin 1) = 0 ∧ win0_6.index t (0 : Fin 1) = 0) :=
  (by decide +kernel : ∀ t : Fin grid0.N, _)

/-- Every block position `(β, σ, 0)` is some point's. -/
theorem idx_onto : ∀ (q0 : Fin 4) (q1 : Fin 4), ∃ t : Fin cfg0.N, win0_7.index t = ![q0.val, q1.val, 0] :=
  (by decide +kernel : ∀ (q0 : Fin 4) (q1 : Fin 4), ∃ t : Fin grid0.N, win0_7.index t = ![q0.val, q1.val, 0])

/-! ## The input blocks as entries of the arrays at entry -/

/-- An entry of the activations' block at point `t` is the array's entry at the block's position. -/
theorem acts_blk (c : Dev nD) (t : Fin cfg0.N) (y : S1x512x1024.Idx) (k : S4x2048x1024.Idx)
    (h0 : (k 0).val = win0_0.index t (0 : Fin 3) * 1 + 1 * (y 0).val)
    (h1 : (k 1).val = win0_0.index t (1 : Fin 3) * 512 + 1 * (y 1).val)
    (h2 : (k 2).val = win0_0.index t (2 : Fin 3) * 1024 + 1 * (y 2).val) :
    (iblk0 V c 0 t : Vec Ideal S1x512x1024 .f32) y = (V c main_arg0 : S4x2048x1024.Idx → EReal) k := by
  unfold iblk0
  rw [View.read_apply]
  show V c main_arg0 _ = V c main_arg0 _
  refine congrArg _ (funext fun a => Fin.ext ?_)
  match a with
  | ⟨0, _⟩ => exact h0.symm
  | ⟨1, _⟩ => exact h1.symm
  | ⟨2, _⟩ => exact h2.symm

/-- The whole-array block of weight window 1 is the array. -/
theorem wgt_blk1 (c : Dev nD) (t : Fin cfg0.N) (y : S1024x1024.Idx) :
    (iblk0 V c 1 t : Vec Ideal S1024x1024 .bf16) y = (V c main_v0 : S1024x1024.Idx → EReal) y := by
  obtain ⟨-, -, -, -, ⟨e10, e11, e30, e31, e50, e51⟩, -⟩ := idx_facts t
  unfold iblk0
  rw [View.read_apply]
  show V c main_v0 _ = V c main_v0 _
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The whole-array block of weight window 3 is the array. -/
theorem wgt_blk3 (c : Dev nD) (t : Fin cfg0.N) (y : S1024x1024.Idx) :
    (iblk0 V c 3 t : Vec Ideal S1024x1024 .bf16) y = (V c main_v1 : S1024x1024.Idx → EReal) y := by
  obtain ⟨-, -, -, -, ⟨e10, e11, e30, e31, e50, e51⟩, -⟩ := idx_facts t
  unfold iblk0
  rw [View.read_apply]
  show V c main_v1 _ = V c main_v1 _
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- The whole-array block of weight window 5 is the array. -/
theorem wgt_blk5 (c : Dev nD) (t : Fin cfg0.N) (y : S1024x1024.Idx) :
    (iblk0 V c 5 t : Vec Ideal S1024x1024 .bf16) y = (V c main_v2 : S1024x1024.Idx → EReal) y := by
  obtain ⟨-, -, -, -, ⟨e10, e11, e30, e31, e50, e51⟩, -⟩ := idx_facts t
  unfold iblk0
  rw [View.read_apply]
  show V c main_v2 _ = V c main_v2 _
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- The whole-array block of bias window 2 is the array. -/
theorem bias_blk2 (c : Dev nD) (t : Fin cfg0.N) (y : S1024.Idx) :
    (iblk0 V c 2 t : Vec Ideal S1024 .f32) y = (V c main_arg2 : S1024.Idx → EReal) y := by
  obtain ⟨-, -, -, -, -, ⟨e2, e4, e6⟩⟩ := idx_facts t
  unfold iblk0
  rw [View.read_apply]
  show V c main_arg2 _ = V c main_arg2 _
  refine congrArg _ (funext fun a => Fin.ext ?_)
  match a with
  | ⟨0, _⟩ => show win0_2.index t (0 : Fin 1) * 1024 + 1 * (y 0).val = (y 0).val; omega

/-- The whole-array block of bias window 4 is the array. -/
theorem bias_blk4 (c : Dev nD) (t : Fin cfg0.N) (y : S1024.Idx) :
    (iblk0 V c 4 t : Vec Ideal S1024 .f32) y = (V c main_arg4 : S1024.Idx → EReal) y := by
  obtain ⟨-, -, -, -, -, ⟨e2, e4, e6⟩⟩ := idx_facts t
  unfold iblk0
  rw [View.read_apply]
  show V c main_arg4 _ = V c main_arg4 _
  refine congrArg _ (funext fun a => Fin.ext ?_)
  match a with
  | ⟨0, _⟩ => show win0_4.index t (0 : Fin 1) * 1024 + 1 * (y 0).val = (y 0).val; omega

/-- The whole-array block of bias window 6 is the array. -/
theorem bias_blk6 (c : Dev nD) (t : Fin cfg0.N) (y : S1024.Idx) :
    (iblk0 V c 6 t : Vec Ideal S1024 .f32) y = (V c main_arg6 : S1024.Idx → EReal) y := by
  obtain ⟨-, -, -, -, -, ⟨e2, e4, e6⟩⟩ := idx_facts t
  unfold iblk0
  rw [View.read_apply]
  show V c main_arg6 _ = V c main_arg6 _
  refine congrArg _ (funext fun a => Fin.ext ?_)
  match a with
  | ⟨0, _⟩ => show win0_6.index t (0 : Fin 1) * 1024 + 1 * (y 0).val = (y 0).val; omega

/-! ## Result window 7 -/

/-- WHAT POINT `t` WRITES BACK to result 0: block `t` of the linear layer of the arrays at entry. -/
theorem flushed7_eq (c : Dev nD) (t : Fin cfg0.N) :
    (dat0 V c).flushed 7 t
      = ((cfg0.win 7).blk t).view.read (Elt Ideal) (proj (V c main_arg0) (V c main_v0) (V c main_arg2)) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024x1024) hz2, View.ld_unit_zero (S := S1024) hz1]
  obtain ⟨⟨a0, a1, a2⟩, ⟨b0, b1, b2⟩, ⟨c0, c1, c2⟩, ⟨d0, d1, d2⟩, -, -⟩ := idx_facts t
  funext j
  obtain ⟨z, r, o, rfl⟩ : ∃ (z : Fin 1) (r : Fin 512) (o : Fin 1024), j = ix3 z r o := ⟨j 0, j 1, j 2, eq_ix3 j⟩
  have hz : z.val = 0 := by omega
  show k0_pay3 (F := Ideal) (iblk0 V c 0 t) (iblk0 V c 1 t) (iblk0 V c 2 t) (ix3 z r o) = proj (V c main_arg0) (V c main_v0) (V c main_arg2) (((cfg0.win 7).blk t).view.emb (ix3 z r o))
  refine (ProjBody.pay3_apply _ _ _ z r o).trans ?_
  unfold proj
  refine congrArg₂ (· + ·) (Finset.sum_congr rfl fun h _ => congrArg₂ (· * ·) ?_ ?_) ?_
  · refine acts_blk V c t _ _ ?_ ?_ ?_
    · show win0_7.index t (0 : Fin 3) * 1 + 1 * z.val = win0_0.index t (0 : Fin 3) * 1 + 1 * 0; omega
    · show win0_7.index t (1 : Fin 3) * 512 + 1 * r.val = win0_0.index t (1 : Fin 3) * 512 + 1 * r.val; omega
    · show h.val = win0_0.index t (2 : Fin 3) * 1024 + 1 * h.val; omega
  · refine (wgt_blk1 V c t _).trans (congrArg _ (funext fun a => Fin.ext ?_))
    match a with
    | ⟨0, _⟩ => show o.val = win0_7.index t (2 : Fin 3) * 1024 + 1 * o.val; omega
    | ⟨1, _⟩ => rfl
  · refine (bias_blk2 V c t _).trans (congrArg _ (funext fun a => Fin.ext ?_))
    match a with
    | ⟨0, _⟩ => show o.val = win0_7.index t (2 : Fin 3) * 1024 + 1 * o.val; omega

/-- An index of the array is in point `t`'s block iff each coordinate is in the block's range on its axis. -/
theorem mem_blk7 (t : Fin cfg0.N) (i : S4x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v3_0).slice (win0_7.rect t)).set ↔ _
  rw [View.set_slice_whole, Rect.mem_set_unit]
  exact Iff.rfl

/-- Every index of the array is in some point's block: the point whose block position is `(β, ⌊s / 512⌋, 0)`. -/
theorem cover7 (i : S4x2048x1024.Idx) :
    ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  obtain ⟨-, ⟨b0, b1, b2⟩, ⟨c0, c1, c2⟩, -, -, -⟩ := idx_facts t
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- THE ARRAY after the region: the linear layer of the arrays at entry. -/
theorem final7 (c : Dev nD) :
    (dat0 V c).arrAt 7 cfg0.N = proj (V c main_arg0) (V c main_v0) (V c main_arg2) :=
  (dat0 V c).arrAt_eq_of_cover 7 _ (fun t _ => flushed7_eq V c t) cover7

/-! ## Result window 8 -/

/-- WHAT POINT `t` WRITES BACK to result 1: block `t` of the linear layer of the arrays at entry. -/
theorem flushed8_eq (c : Dev nD) (t : Fin cfg0.N) :
    (dat0 V c).flushed 8 t
      = ((cfg0.win 8).blk t).view.read (Elt Ideal) (proj (V c main_arg0) (V c main_v1) (V c main_arg4)) := by
  show (cfg0.win 8).cut (grid0.coords t) ((dat0 V c).after 8 t) = _
  rw [after0_8]
  unfold out0_8
  rw [View.canon_unit_zero hz3]
  simp only [View.ld_unit_zero (S := S1x512x1024) hz3, View.ld_unit_zero (S := S1024x1024) hz2, View.ld_unit_zero (S := S1024) hz1]
  obtain ⟨⟨a0, a1, a2⟩, ⟨b0, b1, b2⟩, ⟨c0, c1, c2⟩, ⟨d0, d1, d2⟩, -, -⟩ := idx_facts t
  funext j
  obtain ⟨z, r, o, rfl⟩ : ∃ (z : Fin 1) (r : Fin 512) (o : Fin 1024), j = ix3 z r o := ⟨j 0, j 1, j 2, eq_ix3 j⟩
  have hz : z.val = 0 := by omega
  show k0_pay4 (F := Ideal) (iblk0 V c 0 t) (iblk0 V c 3 t) (iblk0 V c 4 t) (ix3 z r o) = proj (V c main_arg0) (V c main_v1) (V c main_arg4) (((cfg0.win 8).blk t).view.emb (ix3 z r o))
  refine (ProjBody.pay4_apply _ _ _ z r o).trans ?_
  unfold proj
  refine congrArg₂ (· + ·) (Finset.sum_congr rfl fun h _ => congrArg₂ (· * ·) ?_ ?_) ?_
  · refine acts_blk V c t _ _ ?_ ?_ ?_
    · show win0_8.index t (0 : Fin 3) * 1 + 1 * z.val = win0_0.index t (0 : Fin 3) * 1 + 1 * 0; omega
    · show win0_8.index t (1 : Fin 3) * 512 + 1 * r.val = win0_0.index t (1 : Fin 3) * 512 + 1 * r.val; omega
    · show h.val = win0_0.index t (2 : Fin 3) * 1024 + 1 * h.val; omega
  · refine (wgt_blk3 V c t _).trans (congrArg _ (funext fun a => Fin.ext ?_))
    match a with
    | ⟨0, _⟩ => show o.val = win0_8.index t (2 : Fin 3) * 1024 + 1 * o.val; omega
    | ⟨1, _⟩ => rfl
  · refine (bias_blk4 V c t _).trans (congrArg _ (funext fun a => Fin.ext ?_))
    match a with
    | ⟨0, _⟩ => show o.val = win0_8.index t (2 : Fin 3) * 1024 + 1 * o.val; omega

/-- An index of the array is in point `t`'s block iff each coordinate is in the block's range on its axis. -/
theorem mem_blk8 (t : Fin cfg0.N) (i : S4x2048x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v3_1).slice (win0_8.rect t)).set ↔ _
  rw [View.set_slice_whole, Rect.mem_set_unit]
  exact Iff.rfl

/-- Every index of the array is in some point's block: the point whose block position is `(β, ⌊s / 512⌋, 0)`. -/
theorem cover8 (i : S4x2048x1024.Idx) :
    ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  obtain ⟨-, ⟨b0, b1, b2⟩, ⟨c0, c1, c2⟩, -, -, -⟩ := idx_facts t
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- THE ARRAY after the region: the linear layer of the arrays at entry. -/
theorem final8 (c : Dev nD) :
    (dat0 V c).arrAt 8 cfg0.N = proj (V c main_arg0) (V c main_v1) (V c main_arg4) :=
  (dat0 V c).arrAt_eq_of_cover 8 _ (fun t _ => flushed8_eq V c t) cover8

/-! ## Result window 9 -/

/-- WHAT POINT `t` WRITES BACK to result 2: block `t` of the linear layer of the arrays at entry. -/
theorem flushed9_eq (c : Dev nD) (t : Fin cfg0.N) :
    (dat0 V c).flushed 9 t
      = ((cfg0.win 9).blk t).view.read (Elt Ideal) (proj (V c main_arg0) (V c main_v2) (V c main_arg6)) := by
  show (cfg0.win 9).cut (grid0.coords t) ((dat0 V c).after 9 t) = _
  rw [after0_9]
  unfold out0_9
  rw [View.canon_unit_zero hz3]
  simp only [View.ld_unit_zero (S := S1x512x1024) hz3, View.ld_unit_zero (S := S1024x1024) hz2, View.ld_unit_zero (S := S1024) hz1]
  obtain ⟨⟨a0, a1, a2⟩, ⟨b0, b1, b2⟩, ⟨c0, c1, c2⟩, ⟨d0, d1, d2⟩, -, -⟩ := idx_facts t
  funext j
  obtain ⟨z, r, o, rfl⟩ : ∃ (z : Fin 1) (r : Fin 512) (o : Fin 1024), j = ix3 z r o := ⟨j 0, j 1, j 2, eq_ix3 j⟩
  have hz : z.val = 0 := by omega
  show k0_pay1 (F := Ideal) (k0_pay5 (F := Ideal) (iblk0 V c 0 t) (iblk0 V c 5 t) (iblk0 V c 6 t)) (ix3 z r o) = proj (V c main_arg0) (V c main_v2) (V c main_arg6) (((cfg0.win 9).blk t).view.emb (ix3 z r o))
  refine (ProjBody.pay5_apply _ _ _ z r o).trans ?_
  unfold proj
  refine congrArg₂ (· + ·) (Finset.sum_congr rfl fun h _ => congrArg₂ (· * ·) ?_ ?_) ?_
  · refine acts_blk V c t _ _ ?_ ?_ ?_
    · show win0_9.index t (0 : Fin 3) * 1 + 1 * z.val = win0_0.index t (0 : Fin 3) * 1 + 1 * 0; omega
    · show win0_9.index t (1 : Fin 3) * 512 + 1 * r.val = win0_0.index t (1 : Fin 3) * 512 + 1 * r.val; omega
    · show h.val = win0_0.index t (2 : Fin 3) * 1024 + 1 * h.val; omega
  · refine (wgt_blk5 V c t _).trans (congrArg _ (funext fun a => Fin.ext ?_))
    match a with
    | ⟨0, _⟩ => show o.val = win0_9.index t (2 : Fin 3) * 1024 + 1 * o.val; omega
    | ⟨1, _⟩ => rfl
  · refine (bias_blk6 V c t _).trans (congrArg _ (funext fun a => Fin.ext ?_))
    match a with
    | ⟨0, _⟩ => show o.val = win0_9.index t (2 : Fin 3) * 1024 + 1 * o.val; omega

/-- An index of the array is in point `t`'s block iff each coordinate is in the block's range on its axis. -/
theorem mem_blk9 (t : Fin cfg0.N) (i : S4x2048x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v3_2).slice (win0_9.rect t)).set ↔ _
  rw [View.set_slice_whole, Rect.mem_set_unit]
  exact Iff.rfl

/-- Every index of the array is in some point's block: the point whose block position is `(β, ⌊s / 512⌋, 0)`. -/
theorem cover9 (i : S4x2048x1024.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  obtain ⟨-, ⟨b0, b1, b2⟩, ⟨c0, c1, c2⟩, -, -, -⟩ := idx_facts t
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- THE ARRAY after the region: the linear layer of the arrays at entry. -/
theorem final9 (c : Dev nD) :
    (dat0 V c).arrAt 9 cfg0.N = proj (V c main_arg0) (V c main_v2) (V c main_arg6) :=
  (dat0 V c).arrAt_eq_of_cover 9 _ (fun t _ => flushed9_eq V c t) cover9

end Cert.KernelIdeal.Region0

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.AttnBody.lean ====
/-
  One tile of attention. The second kernel's body loads a `[1, 512, 1024]` block of queries and the whole
  `[1, 2048, 1024]` key and value matrices of one batch, and stores, for query row `r` and feature `h`,

      (Σ_k p(r, k) · V(k, h)) / (Σ_k p(r, k)),   p(r, k) = exp(s(r, k) − max_k s(r, k)),
      s(r, k) = (Σ_{h'} Q(r, h') · K(k, h')) · 1/32.

  The body is read in three stages — the scaled scores, the unnormalised weights, the normalised output — each a
  function of the stage before it, and each read at an entry: the two matrix products into zero accumulators are plain
  sums, the two row reductions are a sum and a running maximum over the row, a row statistic kept as a column is
  broadcast back along its row, and the narrowing of the weights to bf16 is the identity on the extended reals.
-/
import proofs.«177479_j78743930405585_2_alg».proof.Proof.Gen.KernelIdeal.Skeleton
import proofs.«177479_j78743930405585_2_alg».proof.Proof.Spec
import proofs.«177479_j78743930405585_2_alg».proof.Proof.LibRowsDot
import proofs.«177479_j78743930405585_2_alg».proof.Proof.LibMatDot
import proofs.«177479_j78743930405585_2_alg».proof.Proof.LibRows
import proofs.«177479_j78743930405585_2_alg».proof.Proof.LibColumn
import Idealize.ShloMosaic.Lib.ValueLayout
import Idealize.ShloMosaic.Lib.Pipeline.Value

noncomputable section

open scoped BigOperators

namespace Cert.KernelIdeal.AttnBody

open Cert.KernelIdeal Cert.KernelIdeal.Gen Idealize.ShloMosaic Idealize.ShloMosaic.ValueIdx Cert.Attn

/-! ## The three stages -/

/-- The scaled scores of a tile: queries against keys, times the literal `1/32`. -/
def scoreT (q : FVec Ideal S512x1024 .bf16) (k : FVec Ideal S2048x1024 .bf16) : FVec Ideal S512x2048 .f32 :=
  mulf (matmul dot_S512x1024_S2048x1024_S512x2048_1_1_0_0_n_n none q k (constant (F := Ideal) S512x2048 .f32 0x00000000#32))
    (broadcast S512x2048 (Scalar.ofBits (F := Ideal) .f32 0x3D000000#32))

/-- The unnormalised softmax weights of a tile of scores: each score less its row's maximum, exponentiated. -/
def weightT (s : FVec Ideal S512x2048 .f32) : FVec Ideal S512x2048 .f32 :=
  exp (subf s (broadcastTo S512x2048
    (shapeCast S512x1 (multiReduction .maximumf [1] S512 s 0xFF800000#32 reduces_S512x2048_S512 (.inl rfl) rfl) shapeCasts_S512_S512x1)
    broadcasts_S512x1_S512x2048))

/-- The output tile: the weights times the values, divided by each row's sum of weights. -/
def outT (p : FVec Ideal S512x2048 .f32) (v : FVec Ideal S2048x1024 .bf16) : FVec Ideal S512x1024 .f32 :=
  divf (matmul dot_S512x2048_S2048x1024_S512x1024_1_0_0_1_n_n none (truncf .bf16 p bitsLt_bf16_f32) v
      (constant (F := Ideal) S512x1024 .f32 0x00000000#32))
    (broadcastTo S512x1024
      (shapeCast S512x1 (multiReduction .add [1] S512 p 0x00000000#32 reduces_S512x2048_S512 (.inl rfl) rfl) shapeCasts_S512_S512x1)
      broadcasts_S512x1_S512x1024)

/-- The body's stored value is the three stages composed, between the casts that drop and restore the unit axis. -/
theorem pay_eq (v0 : Vec Ideal S1x512x1024 .bf16) (v2 : Vec Ideal S1x2048x1024 .bf16) (v15 : Vec Ideal S1x2048x1024 .bf16) :
    k1_pay1 (F := Ideal) v0 v2 v15
      = shapeCast S1x512x1024 (outT (weightT (scoreT (shapeCast S512x1024 v0 shapeCasts_S1x512x1024_S512x1024)
          (shapeCast S2048x1024 v2 shapeCasts_S1x2048x1024_S2048x1024))) (shapeCast S2048x1024 v15 shapeCasts_S1x2048x1024_S2048x1024))
          shapeCasts_S512x1024_S1x512x1024 := rfl

/-! ## The two products' records -/

theorem qk_dot (q : FVec Ideal S512x1024 .bf16) (k : FVec Ideal S2048x1024 .bf16) (r : Fin 512) (c : Fin 2048) :
    matmul dot_S512x1024_S2048x1024_S512x2048_1_1_0_0_n_n none q k (constant (F := Ideal) S512x2048 .f32 0x00000000#32) (ix2 r c)
      = ∑ h : Fin 1024, q (ix2 r h) * k (ix2 c h) :=
  Cert.Lora.rows_dot_zero dot_S512x1024_S2048x1024_S512x2048_1_1_0_0_n_n none rfl rfl
    (fun j c => by
      unfold DotDims.lhsIdx
      rw [dif_neg (show ¬(0 : Fin S512x1024.rank) ∈ dot_S512x1024_S2048x1024_S512x2048_1_1_0_0_n_n.lhsBatch by decide),
        dif_pos (show (0 : Fin S512x1024.rank) ∈ dot_S512x1024_S2048x1024_S512x2048_1_1_0_0_n_n.lhsNonContracting by decide)]
      rfl)
    (fun j c => dot_S512x1024_S2048x1024_S512x2048_1_1_0_0_n_n.lhsIdx_val_of_single rfl j c)
    (fun j c => by
      unfold DotDims.rhsIdx
      rw [dif_neg (show ¬(0 : Fin S2048x1024.rank) ∈ dot_S512x1024_S2048x1024_S512x2048_1_1_0_0_n_n.rhsBatch by decide),
        dif_pos (show (0 : Fin S2048x1024.rank) ∈ dot_S512x1024_S2048x1024_S512x2048_1_1_0_0_n_n.rhsNonContracting by decide)]
      rfl)
    (fun j c => dot_S512x1024_S2048x1024_S512x2048_1_1_0_0_n_n.rhsIdx_val_of_single rfl j c)
    q k r c

theorem pv_dot (p : FVec Ideal S512x2048 .bf16) (v : FVec Ideal S2048x1024 .bf16) (r : Fin 512) (h : Fin 1024) :
    matmul dot_S512x2048_S2048x1024_S512x1024_1_0_0_1_n_n none p v (constant (F := Ideal) S512x1024 .f32 0x00000000#32) (ix2 r h)
      = ∑ k : Fin 2048, p (ix2 r k) * v (ix2 k h) :=
  mat_dot_zero dot_S512x2048_S2048x1024_S512x1024_1_0_0_1_n_n none rfl rfl
    (fun j c => by
      unfold DotDims.lhsIdx
      rw [dif_neg (show ¬(0 : Fin S512x2048.rank) ∈ dot_S512x2048_S2048x1024_S512x1024_1_0_0_1_n_n.lhsBatch by decide),
        dif_pos (show (0 : Fin S512x2048.rank) ∈ dot_S512x2048_S2048x1024_S512x1024_1_0_0_1_n_n.lhsNonContracting by decide)]
      rfl)
    (fun j c => dot_S512x2048_S2048x1024_S512x1024_1_0_0_1_n_n.lhsIdx_val_of_single rfl j c)
    (fun j c => dot_S512x2048_S2048x1024_S512x1024_1_0_0_1_n_n.rhsIdx_val_of_single rfl j c)
    (fun j c => by
      unfold DotDims.rhsIdx
      rw [dif_neg (show ¬(1 : Fin S2048x1024.rank) ∈ dot_S512x2048_S2048x1024_S512x1024_1_0_0_1_n_n.rhsBatch by decide),
        dif_pos (show (1 : Fin S2048x1024.rank) ∈ dot_S512x2048_S2048x1024_S512x1024_1_0_0_1_n_n.rhsNonContracting by decide)]
      rfl)
    p v r h

/-! ## Each stage at an entry -/

/-- A scaled score: the dot product of query row `r` and key row `c`, times `1/32`. -/
theorem score_apply (q : FVec Ideal S512x1024 .bf16) (k : FVec Ideal S2048x1024 .bf16) (r : Fin 512) (c : Fin 2048) :
    scoreT q k (ix2 r c) = (∑ h : Fin 1024, q (ix2 r h) * k (ix2 c h)) * Ideal.ofBits .f32 0x3D000000#32 := by
  unfold scoreT
  rw [mulf_apply, qk_dot]
  rfl

/-- An unnormalised weight: the score less the maximum of its row, exponentiated. -/
theorem weight_apply (s : FVec Ideal S512x2048 .f32) (r : Fin 512) (c : Fin 2048) :
    weightT s (ix2 r c) = Ideal.exp (s (ix2 r c) - rowMax (fun k : Fin 2048 => s (ix2 r k))) := by
  unfold weightT
  rw [exp_apply, subf_apply]
  refine congrArg (fun m => Ideal.exp (s (ix2 r c) - m)) ?_
  refine (broadcastTo_a1_ab_apply _ broadcasts_S512x1_S512x2048 r c).trans ?_
  refine (shapeCast_a_a1_apply _ shapeCasts_S512_S512x1 r (0 : Fin 1)).trans ?_
  exact multiReduction_max_row s 0xFF800000#32 reduces_S512x2048_S512 (.inl rfl) rfl r

/-- An output entry: the weighted sum of the values' column, over the sum of the row's weights. -/
theorem out_apply (p : FVec Ideal S512x2048 .f32) (v : FVec Ideal S2048x1024 .bf16) (r : Fin 512) (h : Fin 1024) :
    outT p v (ix2 r h) = Ideal.div (∑ k : Fin 2048, p (ix2 r k) * v (ix2 k h)) (∑ k : Fin 2048, p (ix2 r k)) := by
  unfold outT
  rw [divf_apply, pv_dot]
  refine congrArg₂ Ideal.div rfl ?_
  refine (broadcastTo_a1_ab_apply _ broadcasts_S512x1_S512x1024 r h).trans ?_
  refine (shapeCast_a_a1_apply _ shapeCasts_S512_S512x1 r (0 : Fin 1)).trans ?_
  exact multiReduction_add_row p 0x00000000#32 reduces_S512x2048_S512 (.inl rfl) rfl r

/-! ## The stored block at an entry -/

/-- The stored block at `(z, r, h)`: the softmax-weighted average, with the late division, of the values' column `h`
    under the scaled scores of query row `r` against every key row. -/
theorem pay1_apply (v0 : Vec Ideal S1x512x1024 .bf16) (v2 : Vec Ideal S1x2048x1024 .bf16) (v15 : Vec Ideal S1x2048x1024 .bf16)
    (z : Fin 1) (r : Fin 512) (h : Fin 1024) :
    k1_pay1 (F := Ideal) v0 v2 v15 (ix3 z r h)
      = avgLate (fun k : Fin 2048 => (∑ h' : Fin 1024, v0 (ix3 (0 : Fin 1) r h') * v2 (ix3 (0 : Fin 1) k h')) * Ideal.ofBits .f32 0x3D000000#32)
          (fun k : Fin 2048 => v15 (ix3 (0 : Fin 1) k h)) := by
  rw [pay_eq]
  refine (shapeCast_ab_1ab_apply _ shapeCasts_S512x1024_S1x512x1024 z r h).trans ?_
  rw [out_apply]
  have hs : ∀ k : Fin 2048, scoreT (shapeCast S512x1024 v0 shapeCasts_S1x512x1024_S512x1024)
        (shapeCast S2048x1024 v2 shapeCasts_S1x2048x1024_S2048x1024) (ix2 r k)
      = (∑ h' : Fin 1024, v0 (ix3 (0 : Fin 1) r h') * v2 (ix3 (0 : Fin 1) k h')) * Ideal.ofBits .f32 0x3D000000#32 := fun k => by
    rw [score_apply]
    refine congrArg (· * _) (Finset.sum_congr rfl fun h' _ => ?_)
    rw [shapeCast_1ab_ab_apply, shapeCast_1ab_ab_apply]
  unfold avgLate
  refine congrArg₂ Ideal.div (Finset.sum_congr rfl fun k _ => ?_) (Finset.sum_congr rfl fun k _ => ?_)
  · rw [weight_apply, hs, shapeCast_1ab_ab_apply]
    simp only [hs]
  · rw [weight_apply, hs]
    simp only [hs]

end Cert.KernelIdeal.AttnBody

end
-- ==== Proof.Region1.lean ====
/-
  The second kernel's result array as a whole function of the arrays it is entered with.

  The grid has 4 × 4 points; point `(β, σ)` reads query rows `512σ … 512σ + 511` of batch `β`, ALL 2048 key rows and
  value rows of batch `β`, and writes back the same 512 rows of batch `β` of the result. The written block is the block
  of one whole-array function — attention, in the arrangement with the late division, of the three arrays at entry —
  and the sixteen blocks cover the `[4, 2048, 1024]` array.
-/
import proofs.«177479_j78743930405585_2_alg».proof.Proof.Gen.KernelIdeal.Frame
import proofs.«177479_j78743930405585_2_alg».proof.Proof.Spec
import proofs.«177479_j78743930405585_2_alg».proof.Proof.AttnBody
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps, decided over the sixteen points: the queries' block and the result's block sit at the
    same block position `(β, σ, 0)` with `β, σ ≤ 3`; the keys' and the values' block is all of batch `β`. -/
theorem idx_facts : ∀ t : Fin cfg1.N,
    (win1_0.index t (0 : Fin 3) = win1_3.index t (0 : Fin 3) ∧ win1_0.index t (1 : Fin 3) = win1_3.index t (1 : Fin 3)
      ∧ win1_0.index t (2 : Fin 3) = 0)
    ∧ (win1_1.index t (0 : Fin 3) = win1_3.index t (0 : Fin 3) ∧ win1_1.index t (1 : Fin 3) = 0
      ∧ win1_1.index t (2 : Fin 3) = 0)
    ∧ (win1_2.index t (0 : Fin 3) = win1_3.index t (0 : Fin 3) ∧ win1_2.index t (1 : Fin 3) = 0
      ∧ win1_2.index t (2 : Fin 3) = 0)
    ∧ (win1_3.index t (0 : Fin 3) ≤ 3 ∧ win1_3.index t (1 : Fin 3) ≤ 3 ∧ win1_3.index t (2 : Fin 3) = 0) :=
  (by decide +kernel : ∀ t : Fin grid1.N, _)

/-- Every block position `(β, σ, 0)` is some point's. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-! ## The input blocks as entries of the arrays at entry -/

/-- An entry of the queries' block at point `t` is the array's entry at the block's position. -/
theorem q_blk (c : Dev nD) (t : Fin cfg1.N) (y : S1x512x1024.Idx) (k : S4x2048x1024.Idx)
    (h0 : (k 0).val = win1_0.index t (0 : Fin 3) * 1 + 1 * (y 0).val)
    (h1 : (k 1).val = win1_0.index t (1 : Fin 3) * 512 + 1 * (y 1).val)
    (h2 : (k 2).val = win1_0.index t (2 : Fin 3) * 1024 + 1 * (y 2).val) :
    (iblk1 V c 0 t : Vec Ideal S1x512x1024 .bf16) y = (V c main_v3_0 : S4x2048x1024.Idx → EReal) k := by
  unfold iblk1
  rw [View.read_apply]
  show V c main_v3_0 _ = V c main_v3_0 _
  refine congrArg _ (funext fun a => Fin.ext ?_)
  match a with
  | ⟨0, _⟩ => exact h0.symm
  | ⟨1, _⟩ => exact h1.symm
  | ⟨2, _⟩ => exact h2.symm

/-- An entry of the keys' block at point `t` is the array's entry at the block's position. -/
theorem k_blk (c : Dev nD) (t : Fin cfg1.N) (y : S1x2048x1024.Idx) (k : S4x2048x1024.Idx)
    (h0 : (k 0).val = win1_1.index t (0 : Fin 3) * 1 + 1 * (y 0).val)
    (h1 : (k 1).val = win1_1.index t (1 : Fin 3) * 2048 + 1 * (y 1).val)
    (h2 : (k 2).val = win1_1.index t (2 : Fin 3) * 1024 + 1 * (y 2).val) :
    (iblk1 V c 1 t : Vec Ideal S1x2048x1024 .bf16) y = (V c main_v3_1 : S4x2048x1024.Idx → EReal) k := by
  unfold iblk1
  rw [View.read_apply]
  show V c main_v3_1 _ = V c main_v3_1 _
  refine congrArg _ (funext fun a => Fin.ext ?_)
  match a with
  | ⟨0, _⟩ => exact h0.symm
  | ⟨1, _⟩ => exact h1.symm
  | ⟨2, _⟩ => exact h2.symm

/-- An entry of the values' block at point `t` is the array's entry at the block's position. -/
theorem v_blk (c : Dev nD) (t : Fin cfg1.N) (y : S1x2048x1024.Idx) (k : S4x2048x1024.Idx)
    (h0 : (k 0).val = win1_2.index t (0 : Fin 3) * 1 + 1 * (y 0).val)
    (h1 : (k 1).val = win1_2.index t (1 : Fin 3) * 2048 + 1 * (y 1).val)
    (h2 : (k 2).val = win1_2.index t (2 : Fin 3) * 1024 + 1 * (y 2).val) :
    (iblk1 V c 2 t : Vec Ideal S1x2048x1024 .bf16) y = (V c main_v3_2 : S4x2048x1024.Idx → EReal) k := by
  unfold iblk1
  rw [View.read_apply]
  show V c main_v3_2 _ = V c main_v3_2 _
  refine congrArg _ (funext fun a => Fin.ext ?_)
  match a with
  | ⟨0, _⟩ => exact h0.symm
  | ⟨1, _⟩ => exact h1.symm
  | ⟨2, _⟩ => exact h2.symm

/-! ## The result window -/

/-- WHAT POINT `t` WRITES BACK: block `t` of attention of the three arrays at entry. -/
theorem flushed3_eq (c : Dev nD) (t : Fin cfg1.N) :
    (dat1 V c).flushed 3 t
      = ((cfg1.win 3).blk t).view.read (Elt Ideal) (attnLate (V c main_v3_0) (V c main_v3_1) (V c main_v3_2)) := by
  show (cfg1.win 3).cut (grid1.coords t) ((dat1 V c).after 3 t) = _
  rw [after1_3]
  unfold out1_3
  rw [View.canon_unit_zero hz3]
  simp only [View.ld_unit_zero (S := S1x512x1024) hz3, View.ld_unit_zero (S := S1x2048x1024) hz3]
  obtain ⟨⟨a0, a1, a2⟩, ⟨b0, b1, b2⟩, ⟨c0, c1, c2⟩, ⟨d0, d1, d2⟩⟩ := idx_facts t
  funext j
  obtain ⟨z, r, h, rfl⟩ : ∃ (z : Fin 1) (r : Fin 512) (h : Fin 1024), j = ix3 z r h := ⟨j 0, j 1, j 2, eq_ix3 j⟩
  have hz : z.val = 0 := by omega
  show k1_pay1 (F := Ideal) (iblk1 V c 0 t) (iblk1 V c 1 t) (iblk1 V c 2 t) (ix3 z r h)
    = attnLate (V c main_v3_0) (V c main_v3_1) (V c main_v3_2) (((cfg1.win 3).blk t).view.emb (ix3 z r h))
  refine (AttnBody.pay1_apply _ _ _ z r h).trans ?_
  unfold attnLate dotQK
  refine congrArg₂ avgLate (funext fun k => congrArg (· * _) (Finset.sum_congr rfl fun h' _ => congrArg₂ (· * ·) ?_ ?_))
    (funext fun k => ?_)
  · refine q_blk V c t _ _ ?_ ?_ ?_
    · show win1_3.index t (0 : Fin 3) * 1 + 1 * z.val = win1_0.index t (0 : Fin 3) * 1 + 1 * 0; omega
    · show win1_3.index t (1 : Fin 3) * 512 + 1 * r.val = win1_0.index t (1 : Fin 3) * 512 + 1 * r.val; omega
    · show h'.val = win1_0.index t (2 : Fin 3) * 1024 + 1 * h'.val; omega
  · refine k_blk V c t _ _ ?_ ?_ ?_
    · show win1_3.index t (0 : Fin 3) * 1 + 1 * z.val = win1_1.index t (0 : Fin 3) * 1 + 1 * 0; omega
    · show k.val = win1_1.index t (1 : Fin 3) * 2048 + 1 * k.val; omega
    · show h'.val = win1_1.index t (2 : Fin 3) * 1024 + 1 * h'.val; omega
  · refine v_blk V c t _ _ ?_ ?_ ?_
    · show win1_3.index t (0 : Fin 3) * 1 + 1 * z.val = win1_2.index t (0 : Fin 3) * 1 + 1 * 0; omega
    · show k.val = win1_2.index t (1 : Fin 3) * 2048 + 1 * k.val; omega
    · show win1_3.index t (2 : Fin 3) * 1024 + 1 * h.val = win1_2.index t (2 : Fin 3) * 1024 + 1 * h.val; omega

/-- An index of the array is in point `t`'s block iff each coordinate is in the block's range on its axis. -/
theorem mem_blk3 (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v4).slice (win1_3.rect t)).set ↔ _
  rw [View.set_slice_whole, Rect.mem_set_unit]
  exact Iff.rfl

/-- Every index of the array is in some point's block: the point whose block position is `(β, ⌊s / 512⌋, 0)`. -/
theorem cover3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- THE ARRAY after the region: attention of the three arrays at entry. -/
theorem final3 (c : Dev nD) :
    (dat1 V c).arrAt 3 cfg1.N = attnLate (V c main_v3_0) (V c main_v3_1) (V c main_v3_2) :=
  (dat1 V c).arrAt_eq_of_cover 3 _ (fun t _ => flushed3_eq V c t) cover3

end Cert.KernelIdeal.Region1

end
-- ==== Proof.KernelRun.lean ====
/-
  The idealized kernel's run with its result array named.

  @main is three host conversions of the weight matrices to bf16 (the identity on the extended reals), the first
  kernel (three linear layers) and the second (attention). The buffer contents at each boundary are a fold through
  @main: the launch memory, then the conversions' results, then the first kernel's three result arrays, then the
  second kernel's. Every weakly fair execution ends with the result buffer at the last fold's contents, which is
  attention — in the arrangement with the late division — of the three linear layers of the arguments.
-/
import proofs.«177479_j78743930405585_2_alg».proof.Proof.Gen.KernelIdeal.Frame
import proofs.«177479_j78743930405585_2_alg».proof.Proof.Region0
import proofs.«177479_j78743930405585_2_alg».proof.Proof.Region1
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over the three segments, the final thread state read against
    the final memory, the result buffer among the unscoped references it holds. -/
theorem run_fold : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end AnyInstance

section AtIdeal

variable (m : (ℓ : Loc nD τ sig) → Buf (Elt Ideal) ℓ) (ρ : Dev nD → PrngReg)

/-- No host conversion writes an argument: at the first kernel's entry it is as launched. -/
theorem entry_arg (c : Dev nD) (b : Ref sig .tc) (hb0 : (Proc.devRef .tc b : DevRef τ sig) ≠ Proc.devRef .tc main_v0)
    (hb1 : (Proc.devRef .tc b : DevRef τ sig) ≠ Proc.devRef .tc main_v1) (hb2 : (Proc.devRef .tc b : DevRef τ sig) ≠ Proc.devRef .tc main_v2) :
    V1 m ρ c b = m ((c : Thread nD τ).loc b) := by
  show W1 m ρ c (Proc.devRef .tc b) = W0 m ρ c (Proc.devRef .tc b)
  refine StableHlo.after_of_forall_not_mem (b := Proc.devRef .tc b) _ _ (List.forall_iff_forall_mem.mp ?_)
  simp only [hostOps0, List.Forall, StableHlo.unary_writes, Finset.mem_singleton]
  exact ⟨hb0, hb1, hb2⟩

/-- The conversion of the first weight matrix to bf16 leaves, on the extended reals, the matrix as launched. -/
theorem entry_w0 (c : Dev nD) :
    (V1 m ρ c main_v0 : S1024x1024.Idx → EReal) = (m ((c : Thread nD τ).loc main_arg1) : S1024x1024.Idx → EReal) := by
  show StableHlo.after hostOps0 (W0 m ρ c) (Proc.devRef .tc main_v0) = _
  after_results
  rfl

/-- The conversion of the second weight matrix likewise. -/
theorem entry_w1 (c : Dev nD) :
    (V1 m ρ c main_v1 : S1024x1024.Idx → EReal) = (m ((c : Thread nD τ).loc main_arg3) : S1024x1024.Idx → EReal) := by
  show StableHlo.after hostOps0 (W0 m ρ c) (Proc.devRef .tc main_v1) = _
  after_results
  rfl

/-- The conversion of the third weight matrix likewise. -/
theorem entry_w2 (c : Dev nD) :
    (V1 m ρ c main_v2 : S1024x1024.Idx → EReal) = (m ((c : Thread nD τ).loc main_arg5) : S1024x1024.Idx → EReal) := by
  show StableHlo.after hostOps0 (W0 m ρ c) (Proc.devRef .tc main_v2) = _
  after_results
  rfl

/-- The three arguments a linear layer reads, as the extended-real arrays they are. -/
abbrev X (c : Dev nD) : Act.Idx → EReal := m ((c : Thread nD τ).loc main_arg0)
abbrev Wq (c : Dev nD) : Wgt.Idx → EReal := m ((c : Thread nD τ).loc main_arg1)
abbrev Bq (c : Dev nD) : Bias.Idx → EReal := m ((c : Thread nD τ).loc main_arg2)
abbrev Wk (c : Dev nD) : Wgt.Idx → EReal := m ((c : Thread nD τ).loc main_arg3)
abbrev Bk (c : Dev nD) : Bias.Idx → EReal := m ((c : Thread nD τ).loc main_arg4)
abbrev Wv (c : Dev nD) : Wgt.Idx → EReal := m ((c : Thread nD τ).loc main_arg5)
abbrev Bv (c : Dev nD) : Bias.Idx → EReal := m ((c : Thread nD τ).loc main_arg6)

/-- After the first kernel its first result array is the query layer of the arguments. -/
theorem mid_q (c : Dev nD) : (V2 m ρ c main_v3_0 : Act.Idx → EReal) = proj (X m c) (Wq m c) (Bq m c) := by
  refine (W2_arr m ρ c 7).trans ((Region0.final7 (V1 m ρ) c).trans ?_)
  rw [entry_w0 m ρ c, entry_arg m ρ c main_arg0 (by decide) (by decide) (by decide),
    entry_arg m ρ c main_arg2 (by decide) (by decide) (by decide)]

/-- … its second the key layer. -/
theorem mid_k (c : Dev nD) : (V2 m ρ c main_v3_1 : Act.Idx → EReal) = proj (X m c) (Wk m c) (Bk m c) := by
  refine (W2_arr m ρ c 8).trans ((Region0.final8 (V1 m ρ) c).trans ?_)
  rw [entry_w1 m ρ c, entry_arg m ρ c main_arg0 (by decide) (by decide) (by decide),
    entry_arg m ρ c main_arg4 (by decide) (by decide) (by decide)]

/-- … its third the value layer. -/
theorem mid_v (c : Dev nD) : (V2 m ρ c main_v3_2 : Act.Idx → EReal) = proj (X m c) (Wv m c) (Bv m c) := by
  refine (W2_arr m ρ c 9).trans ((Region0.final9 (V1 m ρ) c).trans ?_)
  rw [entry_w2 m ρ c, entry_arg m ρ c main_arg0 (by decide) (by decide) (by decide),
    entry_arg m ρ c main_arg6 (by decide) (by decide) (by decide)]

/-- After the second kernel the result array is attention of the three layers. -/
theorem last_out (c : Dev nD) :
    (W3 m ρ c (Proc.devRef .tc main_v4) : Act.Idx → EReal)
      = attnLate (proj (X m c) (Wq m c) (Bq m c)) (proj (X m c) (Wk m c) (Bk m c)) (proj (X m c) (Wv m c) (Bv m c)) := by
  refine (W3_arr m ρ c 3).trans ((Region1.final3 (V2 m ρ) c).trans ?_)
  rw [mid_q m ρ c, mid_k m ρ c, mid_v m ρ c]

/-- THE RUN, READ: the result array at attention of the three linear layers of the arguments, the arguments unchanged. -/
theorem run : θ_run defs (onTc (τ := τ) (main (F := Ideal))) ⟨m, fun _ => 0, ρ⟩ (fun r => ∀ c : Dev nD,
      r.2.mem ((c.tc : Thread nD τ).loc main_v4)
        = attnLate (proj (X m c) (Wq m c) (Bq m c)) (proj (X m c) (Wk m c) (Bk m c)) (proj (X m c) (Wv m c) (Bv m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (last_out m ρ c), (h c).2⟩) (run_fold m ρ)

end AtIdeal

end Cert.KernelIdeal.Run

end
-- ==== Proof.lean ====
/-
  Single-head dense attention: a two-kernel implementation against its plain reference, on the extended reals.

  Both programs compute, from activations `x : [4, 2048, 1024]` and three weight/bias pairs, the projections
  `Q, K, V = x · Wᵀ + b`, the scores `Q · Kᵀ` scaled by `1/√1024`, a softmax along the key axis, and the weighted sum of
  `V`. They differ in two places. The kernel multiplies the scores by the literal `1/32`; the reference divides them by
  `√1024` — the same number, and dividing by a nonzero real is multiplying by its reciprocal on every extended real.
  The kernel multiplies the UNNORMALISED weights `exp(s − max s)` into `V` and divides the sum once by the weights' sum;
  the reference divides every weight by that sum first. Moving the division across the sum is a law of the REALS, not
  of the extended reals, and here is where the precondition is used: finite inputs make `Q, K, V` real, hence every
  score real, the row maximum real, every weight a positive real and their sum a positive real, and then both sides
  are the same real number.

  The kernel's value is read off its run block by block (each kernel's written blocks are blocks of one whole-array
  function and cover the array), the reference's off its run operation by operation; the two arrangements are stated
  once, program-free, and proved equal on real inputs.
-/
import proofs.«177479_j78743930405585_2_alg».proof.Defs
import proofs.«177479_j78743930405585_2_alg».proof.Proof.Gen.Kernel
import proofs.«177479_j78743930405585_2_alg».proof.Proof.Gen.Kernel.Frame
import proofs.«177479_j78743930405585_2_alg».proof.Proof.Gen.KernelIdeal
import proofs.«177479_j78743930405585_2_alg».proof.Proof.Gen.KernelIdeal.Frame
import proofs.«177479_j78743930405585_2_alg».proof.Proof.Gen.ReferenceIdeal
import proofs.«177479_j78743930405585_2_alg».proof.Proof.Gen.ReferenceIdeal.Run
import proofs.«177479_j78743930405585_2_alg».proof.Proof.Gen.ReferenceIdeal.Read
import proofs.«177479_j78743930405585_2_alg».proof.Proof.Gen.Pre_finite_inputs
import proofs.«177479_j78743930405585_2_alg».proof.Proof.Spec
import proofs.«177479_j78743930405585_2_alg».proof.Proof.SpecLaws
import proofs.«177479_j78743930405585_2_alg».proof.Proof.Finite
import proofs.«177479_j78743930405585_2_alg».proof.Proof.RefValue
import proofs.«177479_j78743930405585_2_alg».proof.Proof.KernelRun
import Idealize.ShloMosaic.Adequacy
import Idealize.ShloMosaic.Init

noncomputable section

namespace Cert.Proof

open Idealize.ShloMosaic Idealize.SL.Sem Cert.Attn

/-- The kernel as printed runs and leaves its arguments unchanged. -/
theorem frame_k [Cert.Kernel.Facts] [Cert.Pre_finite_inputs.Facts] : Cert.frame_Kernel :=
  fun m ρ _ => Cert.Kernel.Gen.frame m ρ

/-- The idealized kernel runs and leaves its arguments unchanged. -/
theorem frame_ki [Cert.KernelIdeal.Facts] [Cert.Pre_finite_inputs.Facts] : Cert.frame_KernelIdeal :=
  fun m ρ _ => Cert.KernelIdeal.Gen.frame m ρ

/-- The idealized reference runs and leaves its arguments unchanged: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on finite arguments the two idealized programs end with equal results: the kernel's is
    the late-division attention of the three linear layers, the reference's the early-division one, and on the real
    layers that finite arguments give the two arrangements agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6⟩ := Cert.Attn.Finite.real_of_pre _ _ _ _ _ _ _ (hpre c)
  rw [Cert.ReferenceIdeal.Read.val_main_v27_eq, Cert.ReferenceIdeal.RefValue.ref_value,
    (hagree c).1, (hagree c).2.1, (hagree c).2.2.1, (hagree c).2.2.2.1, (hagree c).2.2.2.2.1,
    (hagree c).2.2.2.2.2.1, (hagree c).2.2.2.2.2.2]
  exact (attnLate_eq_attnEarly _ _ _ (proj_real _ _ _ r0 r1 r2) (proj_real _ _ _ r0 r3 r4) (proj_real _ _ _ r0 r5 r6)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
